-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S850000x64 : Shape := ⟨2, ![850000, 64]⟩
abbrev S1x64 : Shape := ⟨2, ![1, 64]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩
abbrev S512x2 : Shape := ⟨2, ![512, 2]⟩
abbrev S512 : Shape := ⟨1, ![512]⟩
abbrev S512x1 : Shape := ⟨2, ![512, 1]⟩

abbrev nBuf : Space → Nat
  | .hbm => 100
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x64, .bf16⟩
  | .hbm, ⟨41, _⟩ => ⟨S850000x64, .f32⟩
  | .hbm, ⟨42, _⟩ => ⟨S_, .f32⟩
  | .hbm, ⟨43, _⟩ => ⟨S50000x64, .f32⟩
  | .hbm, ⟨44, _⟩ => ⟨S850000x1, .i32⟩
  | .hbm, ⟨45, _⟩ => ⟨S50000x64, .f32⟩
  | .hbm, ⟨46, _⟩ => ⟨S1x64, .f32⟩
  | .hbm, ⟨47, _⟩ => ⟨S50000x64, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .bf16⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S1x64, .f32⟩
  | .hbm, ⟨63, _⟩ => ⟨S50000x2, .bf16⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x2, .bf16⟩
  | .hbm, ⟨73, _⟩ => ⟨S850000x2, .f32⟩
  | .hbm, ⟨74, _⟩ => ⟨S_, .f32⟩
  | .hbm, ⟨75, _⟩ => ⟨S50000x2, .f32⟩
  | .hbm, ⟨76, _⟩ => ⟨S850000x1, .i32⟩
  | .hbm, ⟨77, _⟩ => ⟨S50000x2, .f32⟩
  | .hbm, ⟨78, _⟩ => ⟨S50000x2, .f32⟩
  | .hbm, ⟨79, _⟩ => ⟨S50000x2, .f32⟩
  | .hbm, ⟨80, _⟩ => ⟨S1x2, .f32⟩
  | .hbm, ⟨81, _⟩ => ⟨S50000x2, .f32⟩
  | .hbm, ⟨82, _⟩ => ⟨S50000x2, .f32⟩
  | .hbm, ⟨83, _⟩ => ⟨S_, .f32⟩
  | .hbm, ⟨84, _⟩ => ⟨S512x2, .f32⟩
  | .hbm, ⟨85, _⟩ => ⟨S50000x1, .i32⟩
  | .hbm, ⟨86, _⟩ => ⟨S512x2, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S512, .f32⟩
  | .hbm, ⟨91, _⟩ => ⟨S50000x1, .i32⟩
  | .hbm, ⟨92, _⟩ => ⟨S512, .f32⟩
  | .hbm, ⟨93, _⟩ => ⟨S_, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512x1, .f32⟩
  | .hbm, ⟨98, _⟩ => ⟨S512x2, .f32⟩
  | .hbm, ⟨99, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x2, .f32⟩
  | .local _ .vmem, ⟨21, _⟩ => ⟨S5000x2, .bf16⟩
  | .local _ .vmem, ⟨22, _⟩ => ⟨S5000x2, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  packedbf16_S5000x2_S5000x2_0_0 : (Rect.unit (s := S5000x2) ![0, 0] S5000x2.size inb_S5000x2_S5000x2_0_0).PackedRows (EltTy.packing .bf16)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  shapeCasts_S2_S1x2 : S2.ShapeCasts S1x2
  bcast_S1x2_S50000x2_0_1 : S1x2.BroadcastsInDim S50000x2 (![0, 1] : Fin 2 → Fin S50000x2.rank)
  bcast_S_S512x2 : S_.BroadcastsInDim S512x2 (![] : Fin 0 → Fin S512x2.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  scatter_S50000_S850000x1_S850000_n_0_0_1_wf : ScatterDims.WF S50000 S850000x1 S850000 [] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  scatter_S512x2_S50000x1_S50000x2_1_0_0_1_wf : ScatterDims.WF S512x2 S50000x1 S50000x2 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S50000x2.size a
  hwx2_4 : ∀ i : grid2.Coords, EltTy.bits .bf16 = 32 ∨ (Rect.block (s := S50000x2) S5000x2.size (cc2_transform_4 i) (hinb2_4 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x2 : Shape := ⟨2, ![50000, 2]⟩
abbrev S850000x2 : Shape := ⟨2, ![850000, 2]⟩
abbrev S1x2 : Shape := ⟨2, ![1, 2]⟩
abbrev S512x2 : Shape := ⟨2, ![512, 2]⟩
abbrev S50000x1 : Shape := ⟨2, ![50000, 1]⟩
abbrev S512 : Shape := ⟨1, ![512]⟩
abbrev S512x1 : Shape := ⟨2, ![512, 1]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x64, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S_, .f32⟩
  | 87 => ⟨S50000, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S50000x64, .f32⟩
  | 2 => ⟨S50000x64, .f32⟩
  | 3 => ⟨S50000x2, .f32⟩
  | 4 => ⟨S50000, .i32⟩
  | 5 => ⟨S850000, .i32⟩
  | 6 => ⟨S850000, .i32⟩
  | 7 => ⟨S_, .f32⟩
  | 8 => ⟨S850000, .f32⟩
  | 9 => ⟨S_, .f32⟩
  | 10 => ⟨S50000, .f32⟩
  | 11 => ⟨S850000x1, .i32⟩
  | 12 => ⟨S50000, .f32⟩
  | 13 => ⟨S_, .f32⟩
  | 14 => ⟨S50000, .f32⟩
  | 15 => ⟨S50000, .i1⟩
  | 16 => ⟨S_, .f32⟩
  | 17 => ⟨S_, .f32⟩
  | 18 => ⟨S50000, .f32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x2, .f32⟩
  | 49 => ⟨S850000x1, .f32⟩
  | 50 => ⟨S850000x2, .f32⟩
  | 51 => ⟨S850000x2, .f32⟩
  | 52 => ⟨S_, .f32⟩
  | 53 => ⟨S50000x2, .f32⟩
  | 54 => ⟨S850000x1, .i32⟩
  | 55 => ⟨S50000x2, .f32⟩
  | 56 => ⟨S1x2, .f32⟩
  | 57 => ⟨S50000x2, .f32⟩
  | 58 => ⟨S50000x2, .f32⟩
  | 59 => ⟨S_, .f32⟩
  | 60 => ⟨S512x2, .f32⟩
  | 61 => ⟨S50000x1, .i32⟩
  | 62 => ⟨S512x2, .f32⟩
  | 63 => ⟨S_, .f32⟩
  | 64 => ⟨S50000, .f32⟩
  | 65 => ⟨S_, .f32⟩
  | 66 => ⟨S512, .f32⟩
  | 67 => ⟨S50000x1, .i32⟩
  | 68 => ⟨S512, .f32⟩
  | 69 => ⟨S_, .f32⟩
  | 70 => ⟨S_, .f32⟩
  | 71 => ⟨S512, .f32⟩
  | 72 => ⟨S512, .f32⟩
  | 73 => ⟨S512x1, .f32⟩
  | 74 => ⟨S512x2, .f32⟩
  | 75 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v102 : Ref sig .tc := ⟨.hbm, 147, rfl⟩
abbrev main_v103 : Ref sig .tc := ⟨.hbm, 148, rfl⟩
abbrev main_c_24 : Ref sig .tc := ⟨.hbm, 149, rfl⟩
abbrev main_v104 : Ref sig .tc := ⟨.hbm, 150, rfl⟩
abbrev main_v105 : Ref sig .tc := ⟨.hbm, 151, rfl⟩
abbrev main_c_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_26 : Ref sig .tc := ⟨.hbm, 158, rfl⟩
abbrev main_v111 : Ref sig .tc := ⟨.hbm, 159, rfl⟩
abbrev main_v112 : Ref sig .tc := ⟨.hbm, 160, rfl⟩
abbrev main_c_27 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_28 : Ref sig .tc := ⟨.hbm, 168, rfl⟩
abbrev main_v119 : Ref sig .tc := ⟨.hbm, 169, rfl⟩
abbrev main_v120 : Ref sig .tc := ⟨.hbm, 170, rfl⟩
abbrev main_c_29 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_30 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_31 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_32 : Ref sig .tc := ⟨.hbm, 191, rfl⟩
abbrev main_v138 : Ref sig .tc := ⟨.hbm, 192, rfl⟩
abbrev main_cst_33 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_34 : Ref sig .tc := ⟨.hbm, 197, rfl⟩
abbrev main_call5_v0 : Ref sig .tc := ⟨.hbm, 198, rfl⟩
abbrev main_call5_v1 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S512x2 : S_.BroadcastsInDim S512x2 (![] : Fin 0 → Fin S512x2.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  scatter_S512x2_S50000x1_S50000x2_1_0_0_1_wf : ScatterDims.WF S512x2 S50000x1 S50000x2 [1] [0] [0] 1
  scatter_S512_S50000x1_S50000_n_0_0_1_wf : ScatterDims.WF S512 S50000x1 S50000 [] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.KernelRun.lean ====
/-
  The idealized kernel's run with its result named. Every weakly fair execution of the program from a memory with zero
  counters terminates without a fault; in the final state the result buffer holds what the last boundary of the segment
  fold assigns to it (`Gen.W11 m ρ c` at the result's reference), and every argument array is as launched. The fold
  `Gen.W0 … Gen.W11` walks the program's segments in order: a stretch of host operations rewrites the buffers it
  writes, a kernel region leaves each of its output arrays at the write-backs of its grid points.
-/
import proofs.«146662_j49950469653067_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run : θ_run defs (onTc (τ := τ) (main (F := F))) ⟨m, fun _ => 0, ρ⟩ (fun r => ∀ c : Dev nD,
      r.2.mem ((c.tc : Thread nD τ).loc main_v69) = W11 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v69 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.KRun

end
-- ==== Proof.LibReadBack.lean ====
/-
  Reading a fold of host operations back at one buffer. The fold `after ops V` applies each operation's result map in
  order. Read at a buffer, it is the value, at the operands' contents, of the function of the last operation that
  writes the buffer; an operation that does not write the buffer leaves what was there; and the operands' contents are
  the fold of the earlier operations read at the operands' buffers, and so on down to the starting contents `V`.
  Unfolding this recursion turns the fold into the composed term of the operations' functions over `V` at the buffers
  no operation writes. It is done in two sweeps: one rewriting sweep over the whole term, which does not reach an
  operand that sits inside a list of shaped pieces (the pieces of a concatenation), and a loop of single rewrites that
  finishes those.
-/
import Idealize.ShloMosaic.Lib.StableHlo.Run

namespace Cert.Lib

open Idealize.ShloMosaic Idealize.ShloMosaic.StableHlo

/-- What the first sweep leaves: each remaining operation's result read at its own buffer becomes its function's value,
    and read at any other buffer what was there before. -/
macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A fold of host operations read at a buffer, unfolded to the composed term: the sweep, then the loop. -/
macro "read_back" : tactic => `(tactic| (after_results_simp; read_results))

end Cert.Lib
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«146662_j49950469653067_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.Region0.lean ====
/-
  The first kernel region, as one function of the arrays it reads. At every grid point t the body holds rows
  5000 t … 5000 t + 4999 of the feature matrix x and of the one-column normalisation matrix s, and the whole weight
  matrix w; it writes back, as rows 5000 t … 5000 t + 4999 of its output, the product of its rows of x with w scaled
  row by row by its rows of s. A band of rows of a matrix product is the product of the band, and a band of a
  row-scaled matrix is the band scaled by the band of the factor; the ten bands tile the 50000 rows. So the output
  array after the region is (x w) scaled row by row by s.
-/
import proofs.«146662_j49950469653067_2_alg».proof.Proof.Gen.KernelIdeal.Frame
import proofs.«146662_j49950469653067_2_alg».proof.Proof.LibMatProd
import proofs.«146662_j49950469653067_2_alg».proof.Proof.LibRowScale
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibMatProd Cert.LibRowScale

variable (V : (c : Dev nD) → (b : Ref sig .tc) → Buf (Elt Ideal) ((c : Thread nD τ).loc b))

theorem hz : (![0, 0] : Fin 2 → Nat) = fun _ => 0 := funext fun a => by fin_cases a <;> rfl

/-- The body's arithmetic: the product of the two loaded blocks, scaled row by row by the loaded column. -/
theorem pay_eq (v0 : Vec Ideal S5000x128 .f32) (v2 : Vec Ideal S128x64 .f32) (v5 : Vec Ideal S5000x1 .f32) :
    (k0_pay1 (F := Ideal) v0 v2 v5 : S5000x64.Idx → EReal)
      = rowScale (matProd (M := 5000) (K := 128) (N := 64) v0 v2) v5 := by
  funext j
  obtain ⟨p, q, rfl⟩ : ∃ (p : Fin 5000) (q : Fin 64), j = ix2 p q := ⟨j 0, j 1, eq_ix2 j⟩
  unfold k0_pay1
  rw [truncf_apply, mulf_apply, broadcastTo_col_apply, shapeCast_self, rowScale_apply]
  exact congrArg (· * v5 (ix2 p (0 : Fin 1)))
    (congrFun (matmul_eq dot_S5000x128_S128x64_S5000x64_1_0_0_1_n_n rfl rfl rfl rfl rfl rfl v0 v2 _) (ix2 p q))

/-- The region's output array: the feature matrix times the weights, scaled row by row by the normalisation column. -/
def G (c : Dev nD) : S50000x64.Idx → EReal :=
  rowScale (matProd (M := 50000) (K := 128) (N := 64) (V c main_arg0) (V c main_arg3)) (V c main_v15)

/-- The printed index maps over the grid: the row-blocked windows sit at block t, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- Every one of the ten row blocks is some point's. -/
theorem idx_onto : ∀ q : Fin 10, ∃ t : Fin cfg0.N, t.val = q.val :=
  (by decide +kernel : ∀ q : Fin 10, ∃ t : Fin grid0.N, t.val = q.val)

/-- What point t writes back is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨e00, e01, e10, e11, e20, e21, e30, e31, ht⟩ := idx_facts t
  funext y
  show k0_pay1 (F := Ideal) (iblk0 V c 0 t) (iblk0 V c 1 t) (iblk0 V c 2 t) y = G V c (((cfg0.win 3).blk t).view.emb y)
  rw [pay_eq]
  have hy0 : (y 0).val < 5000 := (y 0).isLt
  refine rowScale_rows (M := 50000) (N := 64) (T := 5000) _ (V c main_v15) _ (iblk0 V c 2 t) (t.val * 5000) ?_ ?_ y _ ?_ ?_
  · intro p q hp
    refine matProd_rows (M := 50000) (K := 128) (N := 64) (T := 5000) (V c main_arg0) (V c main_arg3) (iblk0 V c 0 t) (iblk0 V c 1 t)
      (t.val * 5000) ?_ ?_ (ix2 p q) (ix2 ⟨t.val * 5000 + p.val, hp⟩ q) rfl rfl
    · intro p' k hp'
      show V c main_arg0 (((cfg0.win 0).blk t).view.emb (ix2 p' k)) = V c main_arg0 (ix2 ⟨t.val * 5000 + p'.val, hp'⟩ k)
      refine congrArg _ (funext fun a => Fin.ext ?_)
      match a with
      | ⟨0, _⟩ => show win0_0.index t (0 : Fin 2) * 5000 + 1 * p'.val = t.val * 5000 + p'.val; omega
      | ⟨1, _⟩ => show win0_0.index t (1 : Fin 2) * 128 + 1 * k.val = k.val; omega
    · intro z
      show V c main_arg3 (((cfg0.win 1).blk t).view.emb z) = V c main_arg3 z
      refine congrArg _ (funext fun a => Fin.ext ?_)
      match a with
      | ⟨0, _⟩ => show win0_1.index t (0 : Fin 2) * 128 + 1 * (z 0).val = (z 0).val; omega
      | ⟨1, _⟩ => show win0_1.index t (1 : Fin 2) * 64 + 1 * (z 1).val = (z 1).val; omega
  · intro p hp
    show V c main_v15 (((cfg0.win 2).blk t).view.emb (ix2 p (0 : Fin 1))) = V c main_v15 (ix2 ⟨t.val * 5000 + p.val, hp⟩ (0 : Fin 1))
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · show win0_3.index t (0 : Fin 2) * 5000 + 1 * (y 0).val = t.val * 5000 + (y 0).val; omega
  · show win0_3.index t (1 : Fin 2) * 64 + 1 * (y 1).val = (y 1).val; omega

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- The ten blocks tile the array: row r is in the block of point r / 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21, e30, e31, _⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«146662_j49950469653067_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.Region1.lean ====
/-
  The second kernel region, as one function of the arrays it reads. At every grid point t the body holds rows
  5000 t … 5000 t + 4999 of the aggregated matrix a and of the one-column normalisation matrix s, the whole bias row b
  and the whole weight matrix w. It scales its rows of a by its rows of s, adds the bias row, clamps below at zero,
  multiplies by w and scales the rows of the product by s again; that is what it writes back as its rows of the output.
  Each of these steps commutes with taking a band of rows, and the ten bands tile the 50000 rows. So the output array
  after the region is ((relu (a scaled by s, plus b)) w) scaled by s.
-/
import proofs.«146662_j49950469653067_2_alg».proof.Proof.Gen.KernelIdeal.Frame
import proofs.«146662_j49950469653067_2_alg».proof.Proof.LibMatProd
import proofs.«146662_j49950469653067_2_alg».proof.Proof.LibRowScale
import proofs.«146662_j49950469653067_2_alg».proof.Proof.LibBiasRelu
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibMatProd Cert.LibRowScale Cert.LibBiasRelu

variable (V : (c : Dev nD) → (b : Ref sig .tc) → Buf (Elt Ideal) ((c : Thread nD τ).loc b))

theorem hz : (![0, 0] : Fin 2 → Nat) = fun _ => 0 := funext fun a => by fin_cases a <;> rfl

/-- The layer's function of a matrix a, a normalisation column s, a bias row b and weights w. -/
def layer {M K N : ℕ} (a : FVec Ideal ⟨2, ![M, K]⟩ .f32) (s : FVec Ideal ⟨2, ![M, 1]⟩ .f32) (b : FVec Ideal ⟨2, ![1, K]⟩ .f32)
    (w : FVec Ideal ⟨2, ![K, N]⟩ .f32) : FVec Ideal ⟨2, ![M, N]⟩ .f32 :=
  rowScale (matProd (biasRelu (rowScale a s) b) w) s

/-- A band of rows of the layer's function is the layer's function of the bands. -/
theorem layer_rows {M K N T : ℕ} (A : FVec Ideal ⟨2, ![M, K]⟩ .f32) (S : FVec Ideal ⟨2, ![M, 1]⟩ .f32)
    (B : FVec Ideal ⟨2, ![1, K]⟩ .f32) (W : FVec Ideal ⟨2, ![K, N]⟩ .f32)
    (a : FVec Ideal ⟨2, ![T, K]⟩ .f32) (s : FVec Ideal ⟨2, ![T, 1]⟩ .f32) (b : FVec Ideal ⟨2, ![1, K]⟩ .f32)
    (w : FVec Ideal ⟨2, ![K, N]⟩ .f32) (r : ℕ)
    (ha : ∀ (p : Fin T) (k : Fin K) (hp : r + p.val < M), a (ix2 p k) = A (ix2 ⟨r + p.val, hp⟩ k))
    (hs : ∀ (p : Fin T) (hp : r + p.val < M), s (ix2 p (0 : Fin 1)) = S (ix2 ⟨r + p.val, hp⟩ (0 : Fin 1)))
    (hb : ∀ z, b z = B z) (hw : ∀ z, w z = W z)
    (y : (⟨2, ![T, N]⟩ : Shape).Idx) (i : (⟨2, ![M, N]⟩ : Shape).Idx)
    (hi0 : (i 0).val = r + (y 0).val) (hi1 : (i 1).val = (y 1).val) :
    layer a s b w y = layer A S B W i := by
  unfold layer
  refine rowScale_rows _ S _ s r ?_ hs y i hi0 hi1
  intro p q hp
  refine matProd_rows _ W _ w r ?_ hw (ix2 p q) (ix2 ⟨r + p.val, hp⟩ q) rfl rfl
  intro p' k hp'
  refine biasRelu_rows (rowScale A S) B (rowScale a s) b r ?_ hb p' k hp'
  intro p'' k' hp''
  exact rowScale_rows A S a s r ha hs (ix2 p'' k') (ix2 ⟨r + p''.val, hp''⟩ k') rfl rfl

/-- The body's arithmetic is the layer's function of its loaded blocks. -/
theorem pay_eq (v0 : Vec Ideal S5000x64 .f32) (v2 : Vec Ideal S5000x1 .f32) (v6 : Vec Ideal S1x64 .f32) (v13 : Vec Ideal S64x64 .f32) :
    (k1_pay1 (F := Ideal) v0 v2 v6 v13 v2 : S5000x64.Idx → EReal)
      = layer (M := 5000) (K := 64) (N := 64) v0 v2 v6 v13 := by
  have hX : maximumf (addf (mulf v0 (broadcastTo S5000x64 v2 broadcasts_S5000x1_S5000x64))
        (broadcastTo S5000x64 v6 broadcasts_S1x64_S5000x64))
        (broadcast S5000x64 (Scalar.ofBits (F := Ideal) .f32 0x00000000#32))
      = biasRelu (M := 5000) (N := 64) (rowScale (M := 5000) (N := 64) v0 v2) v6 := by
    funext j
    obtain ⟨p, q, rfl⟩ : ∃ (p : Fin 5000) (q : Fin 64), j = ix2 p q := ⟨j 0, j 1, eq_ix2 j⟩
    rw [maximumf_apply, addf_apply, broadcastTo_1b_ab_apply, mulf_apply, broadcastTo_col_apply, biasRelu_apply, rowScale_apply]
    rfl
  funext j
  obtain ⟨p, q, rfl⟩ : ∃ (p : Fin 5000) (q : Fin 64), j = ix2 p q := ⟨j 0, j 1, eq_ix2 j⟩
  unfold k1_pay1 layer
  simp only [shapeCast_self]
  rw [truncf_apply, mulf_apply, broadcastTo_col_apply, rowScale_apply]
  refine congrArg (· * v2 (ix2 p (0 : Fin 1))) ?_
  refine (congrFun (matmul_eq dot_S5000x64_S64x64_S5000x64_1_0_0_1_n_n rfl rfl rfl rfl rfl rfl _ v13 _) (ix2 p q)).trans ?_
  exact congrArg (fun z => matProd (M := 5000) (K := 64) (N := 64) z v13 (ix2 p q)) hX

/-- The region's output array. -/
def G (c : Dev nD) : S50000x64.Idx → EReal :=
  layer (M := 50000) (K := 64) (N := 64) (V c main_v27) (V c main_v15) (V c main_v28) (V c main_arg5)

/-- The printed index maps over the grid: the row-blocked windows sit at block t, the bias and the weights at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every one of the ten row blocks is some point's. -/
theorem idx_onto : ∀ q : Fin 10, ∃ t : Fin cfg1.N, t.val = q.val :=
  (by decide +kernel : ∀ q : Fin 10, ∃ t : Fin grid1.N, t.val = q.val)

/-- What point t writes back is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz,
    View.ld_unit_zero (S := S64x64) hz]
  obtain ⟨e00, e01, e10, e11, e20, e21, e30, e31, e40, e41, ht⟩ := idx_facts t
  funext y
  show k1_pay1 (F := Ideal) (iblk1 V c 0 t) (iblk1 V c 1 t) (iblk1 V c 2 t) (iblk1 V c 3 t) (iblk1 V c 1 t) y
    = G V c (((cfg1.win 4).blk t).view.emb y)
  rw [pay_eq]
  have hy0 : (y 0).val < 5000 := (y 0).isLt
  refine layer_rows (M := 50000) (K := 64) (N := 64) (T := 5000) (V c main_v27) (V c main_v15) (V c main_v28) (V c main_arg5)
    (iblk1 V c 0 t) (iblk1 V c 1 t) (iblk1 V c 2 t) (iblk1 V c 3 t) (t.val * 5000) ?_ ?_ ?_ ?_ y _ ?_ ?_
  · intro p k hp
    show V c main_v27 (((cfg1.win 0).blk t).view.emb (ix2 p k)) = V c main_v27 (ix2 ⟨t.val * 5000 + p.val, hp⟩ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro p hp
    show V c main_v15 (((cfg1.win 1).blk t).view.emb (ix2 p (0 : Fin 1))) = V c main_v15 (ix2 ⟨t.val * 5000 + p.val, hp⟩ (0 : Fin 1))
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro z
    show V c main_v28 (((cfg1.win 2).blk t).view.emb z) = V c main_v28 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 64 + 1 * (z 1).val = (z 1).val; omega
  · intro z
    show V c main_arg5 (((cfg1.win 3).blk t).view.emb z) = V c main_arg5 z
    refine congrArg _ (funext fun a => Fin.ext ?_)
    match a with
    | ⟨0, _⟩ => show win1_3.index t (0 : Fin 2) * 64 + 1 * (z 0).val = (z 0).val; omega
    | ⟨1, _⟩ => show win1_3.index t (1 : Fin 2) * 64 + 1 * (z 1).val = (z 1).val; omega
  · show win1_4.index t (0 : Fin 2) * 5000 + 1 * (y 0).val = t.val * 5000 + (y 0).val; omega
  · show win1_4.index t (1 : Fin 2) * 64 + 1 * (y 1).val = (y 1).val; omega

/-- An index of the array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- The ten blocks tile the array: row r is in the block of point r / 5000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21, e30, e31, e40, e41, _⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.Region2.lean ====
/-
  The third kernel region, as one function of the arrays it reads: the second region's computation with a weight matrix
  of two columns. At grid point t the body scales its 5000 rows of the aggregated matrix by its rows of the
  normalisation column, adds the bias row, clamps below at zero, multiplies by the 64 by 2 weights and scales the rows
  of the product by the normalisation column again. Each step commutes with taking a band of rows and the ten bands
  tile the 50000 rows, so the output array after the region is the layer's function of the whole arrays.
-/
import proofs.«146662_j49950469653067_2_alg».proof.Proof.Region1

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibMatProd Cert.LibRowScale Cert.LibBiasRelu
open Cert.KernelIdeal.Region1 (layer layer_rows hz)

variable (V : (c : Dev nD) → (b : Ref sig .tc) → Buf (Elt Ideal) ((c : Thread nD τ).loc b))

/-- The body's arithmetic is the layer's function of its loaded blocks. -/
theorem pay_eq (v0 : Vec Ideal S5000x64 .f32) (v2 : Vec Ideal S5000x1 .f32) (v6 : Vec Ideal S1x64 .f32) (v13 : Vec Ideal S64x2 .f32) :
    (k2_pay1 (F := Ideal) v0 v2 v6 v13 v2 : S5000x2.Idx → EReal)
      = layer (M := 5000) (K := 64) (N := 2) v0 v2 v6 v13 := by
  have hX : maximumf (addf (mulf v0 (broadcastTo S5000x64 v2 broadcasts_S5000x1_S5000x64))
        (broadcastTo S5000x64 v6 broadcasts_S1x64_S5000x64))
        (broadcast S5000x64 (Scalar.ofBits (F := Ideal) .f32 0x00000000#32))
      = biasRelu (M := 5000) (N := 64) (rowScale (M := 5000) (N := 64) v0 v2) v6 := by
    funext j
    obtain ⟨p, q, rfl⟩ : ∃ (p : Fin 5000) (q : Fin 64), j = ix2 p q := ⟨j 0, j 1, eq_ix2 j⟩
    rw [maximumf_apply, addf_apply, broadcastTo_1b_ab_apply, mulf_apply, broadcastTo_col_apply, biasRelu_apply, rowScale_apply]
    rfl
  funext j
  obtain ⟨p, q, rfl⟩ : ∃ (p : Fin 5000) (q : Fin 2), j = ix2 p q := ⟨j 0, j 1, eq_ix2 j⟩
  unfold k2_pay1 layer
  simp only [shapeCast_self]
  rw [truncf_apply, mulf_apply, broadcastTo_col_apply, rowScale_apply]
  refine congrArg (· * v2 (ix2 p (0 : Fin 1))) ?_
  refine (congrFun (matmul_eq dot_S5000x64_S64x2_S5000x2_1_0_0_1_n_n rfl rfl rfl rfl rfl rfl _ v13 _) (ix2 p q)).trans ?_
  exact congrArg (fun z => matProd (M := 5000) (K := 64) (N := 2) z v13 (ix2 p q)) hX

/-- The region's output array. -/
def G (c : Dev nD) : S50000x2.Idx → EReal :=
  layer (M := 50000) (K := 64) (N := 2) (V c main_v40) (V c main_v15) (V c main_v41) (V c main_arg7)

/-- The printed index maps over the grid: the row-blocked windows sit at block t, the bias and the weights at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 10 :=
  (by decide +kernel : ∀ t : Fin grid2.N, _)

/-- Every one of the ten row blocks is some point's. -/
theorem idx_onto : ∀ q : Fin 10, ∃ t : Fin cfg2.N, t.val = q.val :=
  (by decide +kernel : ∀ q : Fin 10, ∃ t : Fin grid2.N, t.val = q.val)

/-- What point t writes back is block t of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz,
    View.ld_unit_zero (S := S64x2) hz]
  obtain ⟨e00, e01, e10, e11, e20, e21, e30, e31, e40, e41, ht⟩ := idx_facts t
  funext y
  show k2_pay1 (F := Ideal) (iblk2 V c 0 t) (iblk2 V c 1 t) (iblk2 V c 2 t) (iblk2 V c 3 t) (iblk2 V c 1 t) y
    = G V c (((cfg2.win 4).blk t).view.emb y)
  rw [pay_eq]
  have hy0 : (y 0).val < 5000 := (y 0).isLt
  refine layer_rows (M := 50000) (K := 64) (N := 2) (T := 5000) (V c main_v40) (V c main_v15) (V c main_v41) (V c main_arg7)
    (iblk2 V c 0 t) (iblk2 V c 1 t) (iblk2 V c 2 t) (iblk2 V c 3 t) (t.val * 5000) ?_ ?_ ?_ ?_ y _ ?_ ?_
  · intro p k hp
    show V c main_v40 (((cfg2.win 0).blk t).view.emb (ix2 p k)) = V c main_v40 (ix2 ⟨t.val * 5000 + p.val, hp⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · intro p hp
    show V c main_v15 (((cfg2.win 1).blk t).view.emb (ix2 p (0 : Fin 1))) = V c main_v15 (ix2 ⟨t.val * 5000 + p.val, hp⟩ (0 : Fin 1))
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · intro z
    show V c main_v41 (((cfg2.win 2).blk t).view.emb z) = V c main_v41 z
    refine congrArg _ (funext fun a => Fin.ext ?_)
    match a with
    | ⟨0, _⟩ => show win2_2.index t (0 : Fin 2) * 1 + 1 * (z 0).val = (z 0).val; omega
    | ⟨1, _⟩ => show win2_2.index t (1 : Fin 2) * 64 + 1 * (z 1).val = (z 1).val; omega
  · intro z
    show V c main_arg7 (((cfg2.win 3).blk t).view.emb z) = V c main_arg7 z
    refine congrArg _ (funext fun a => Fin.ext ?_)
    match a with
    | ⟨0, _⟩ => show win2_3.index t (0 : Fin 2) * 64 + 1 * (z 0).val = (z 0).val; omega
    | ⟨1, _⟩ => show win2_3.index t (1 : Fin 2) * 2 + 1 * (z 1).val = (z 1).val; omega
  · show win2_4.index t (0 : Fin 2) * 5000 + 1 * (y 0).val = t.val * 5000 + (y 0).val; omega
  · show win2_4.index t (1 : Fin 2) * 2 + 1 * (y 1).val = (y 1).val; omega

/-- An index of the array is in point t's block iff each coordinate is in the block's range on its axis. -/
theorem mem_blk (t : Fin cfg2.N) (i : S50000x2.Idx) :
    i ∈ ((cfg2.win 4).blk t).view.set ↔ ∀ a : Fin 2, win2_4.index t a * S5000x2.size a ≤ (i a).val
      ∧ (i a).val < win2_4.index t a * S5000x2.size a + S5000x2.size a := by
  show i ∈ ((View.whole main_v42).slice (win2_4.rect t)).set ↔ _
  rw [View.set_slice_whole, Rect.mem_set_unit]
  exact Iff.rfl

/-- The ten blocks tile the array: row r is in the block of point r / 5000. -/
theorem cover (i : S50000x2.Idx) : ∃ t : Fin cfg2.N, (cfg2.win 4).flush t = true ∧ i ∈ ((cfg2.win 4).blk t).view.set := by
  have hi0 : (i 0).val < 50000 := (i 0).isLt
  have hi1 : (i 1).val < 2 := (i 1).isLt
  obtain ⟨t, ht⟩ := idx_onto ⟨(i 0).val / 5000, by omega⟩
  have ht' : t.val = (i 0).val / 5000 := ht
  obtain ⟨e00, e01, e10, e11, e20, e21, e30, e31, e40, e41, _⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 2 ≤ (i 1).val ∧ (i 1).val < win2_4.index t (1 : Fin 2) * 2 + 2; omega

/-- The output array after the region. -/
theorem final (c : Dev nD) : (dat2 V c).arrAt 4 cfg2.N = G V c :=
  (dat2 V c).arrAt_eq_of_cover 4 (G V c) (fun t _ => flushed_eq V c t) (cover)

end Cert.KernelIdeal.Region2

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.Spec.lean ====
/-
  The mathematics of one graph-convolution layer with symmetric degree normalisation, over the extended reals.

  Every edge e has a source word s e and a target word d e. Rows are picked at the source (the word taken signed,
  shifted up by the number of nodes when negative, then clamped into range) and added at the target (the word taken
  signed; an edge whose target is out of range adds nowhere). With a normalisation vector dinv, the layer sends a
  matrix xw to the matrix whose entry (n, j) is the sum, over the edges e with target n, of
      xw (src e, j) * (dinv (src e) * dinv n).
  This file states that matrix once (`layerSum`) and shows two programs compute it:
  * per edge: the picked row times the product of the two picked normalisation entries, then added at the targets;
    here an edge that lands on row n has target word n itself, so its picked target entry is dinv n;
  * per node: xw scaled row by row by dinv, picked and added, and the sum scaled by dinv again. Pulling the factor
    dinv n out of the sum over edges is distributivity, which on the extended reals holds for a factor that is
    nonnegative and finite; dinv is one over the square root of a positive quantity, hence such a factor.
-/
import proofs.«146662_j49950469653067_2_alg».proof.Proof.LibSegment
import proofs.«146662_j49950469653067_2_alg».proof.Proof.LibRowScale
import Idealize.ShloMosaic.PureOps.Ideal.Laws
import Idealize.ShloMosaic.PureOps.IdealRules

noncomputable section

open scoped BigOperators

namespace Cert.GcnSpec

open Idealize.ShloMosaic Idealize.ShloMosaic.ValueIdx Cert.LibSegment Cert.LibRowScale

/-- The shape of a scalar. -/
abbrev Sc : Shape := ⟨0, ![]⟩

/-! ## Two laws of the extended reals -/

/-- A finite nonnegative factor distributes over a finite sum of arbitrary extended reals. -/
theorem sum_mul_of_nonneg_ne_top {ι : Type} (s : Finset ι) (f : ι → EReal) {q : EReal} (h0 : 0 ≤ q) (ht : q ≠ ⊤) :
    (∑ e ∈ s, f e) * q = ∑ e ∈ s, f e * q := by
  classical
  induction s using Finset.induction_on with
  | empty => simp
  | insert a s ha ih =>
    rw [Finset.sum_insert ha, Finset.sum_insert ha, EReal.right_distrib_of_nonneg_of_ne_top h0 ht, ih]

/-- One over the square root of a positive extended real is nonnegative and finite (of plus infinity it is zero). -/
theorem rsqrt_nonneg_ne_top {y : EReal} (hy : 0 < y) : 0 ≤ Ideal.rsqrt y ∧ Ideal.rsqrt y ≠ ⊤ := by
  induction y using EReal.rec with
  | bot => exact absurd hy (by simp)
  | top => exact ⟨le_refl _, by simp⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-! ## Small reads -/

/-- A scalar broadcast to any shape reads the scalar everywhere. -/
theorem splat_apply {α : Type} {s : Shape} (h : Sc.BroadcastsInDim s ![]) (x : Sc.Idx → α) (i : s.Idx) :
    broadcastInDim s ![] h x i = x (fun a => a.elim0) :=
  broadcastInDim_apply _ h x i (fun a => a.elim0) (fun ax => ax.elim0)

/-- A vector broadcast into one column reads, at (e, u), the vector at e. -/
theorem col_apply {α : Type} {a : ℕ} (v : (⟨1, ![a]⟩ : Shape).Idx → α)
    (hb : (⟨1, ![a]⟩ : Shape).BroadcastsInDim ⟨2, ![a, 1]⟩ ![0]) (e : Fin a) (u : Fin 1) :
    broadcastInDim ⟨2, ![a, 1]⟩ ![0] hb v (ix2 e u) = v (ix1 e) :=
  broadcastInDim_apply _ hb v _ (ix1 e) (fun ax => match ax with
    | ⟨0, _⟩ => by
      show e.val = if a = 1 then 0 else e.val
      split
      · have := e.isLt; omega
      · rfl)

/-! ## The normalisation vector -/

/-- One over the square root of the degree, a degree that is not positive replaced by one. -/
def dinvOf {s : Shape} (h : Sc.BroadcastsInDim s ![]) (deg : FVec Ideal s .f32) : FVec Ideal s .f32 :=
  Host.rsqrt (F := Ideal) (select (cmpf .ogt deg (broadcastInDim s ![] h (constant (F := Ideal) Sc .f32 0x00000000#32))) deg
    (broadcastInDim s ![] h (constant (F := Ideal) Sc .f32 0x3F800000#32)))

/-- Every entry of the normalisation vector is nonnegative and finite, whatever the degree vector holds. -/
theorem dinvOf_nonneg_ne_top {s : Shape} (h : Sc.BroadcastsInDim s ![]) (deg : FVec Ideal s .f32) (i : s.Idx) :
    0 ≤ dinvOf h deg i ∧ dinvOf h deg i ≠ ⊤ := by
  have h0 : broadcastInDim s ![] h (constant (F := Ideal) Sc .f32 0x00000000#32) i = 0 := by
    rw [splat_apply]; exact Ideal.ofBits_zero_f32
  have h1 : broadcastInDim s ![] h (constant (F := Ideal) Sc .f32 0x3F800000#32) i = 1 := by
    rw [splat_apply]; exact IdealRules.sign_bit.ideal_onePat .f32
  have key : dinvOf h deg i = Ideal.rsqrt (if 0 < deg i then deg i else 1) := by
    show Ideal.rsqrt (Scalar.select (Ideal.cmp .ogt (deg i)
        (broadcastInDim s ![] h (constant (F := Ideal) Sc .f32 0x00000000#32) i)) (deg i)
        (broadcastInDim s ![] h (constant (F := Ideal) Sc .f32 0x3F800000#32) i)) = _
    rw [h0, h1]
    by_cases hd : 0 < deg i
    · rw [if_pos hd]; simp [Scalar.select, Ideal.cmp, hd]
    · rw [if_neg hd]; simp [Scalar.select, Ideal.cmp, hd]
  rw [key]
  apply rsqrt_nonneg_ne_top
  split
  · assumption
  · exact zero_lt_one

/-! ## The index a row is picked at -/

/-- An index word as picking reads it: a negative word is shifted up by the word Nw. -/
def wrapIdx {s : Shape} (h : Sc.BroadcastsInDim s ![]) (Nw : BitVec 32) (v : IVec s 32) : IVec s 32 :=
  select (cmpi .slt v (broadcastInDim s ![] h (constantI Sc 32 0#32))) (addi v (broadcastInDim s ![] h (constantI Sc 32 Nw))) v

/-- A word that is not negative is picked at as it stands. -/
theorem wrapIdx_of_nonneg {s : Shape} (h : Sc.BroadcastsInDim s ![]) (Nw : BitVec 32) (v : IVec s 32) (i : s.Idx)
    (hv : 0 ≤ (v i).toInt) : wrapIdx h Nw v i = v i := by
  show Scalar.select (IntOp.cmpi .slt (v i) (broadcastInDim s ![] h (constantI Sc 32 0#32) i)) _ (v i) = v i
  rw [splat_apply]
  show Scalar.select (BitVec.ofBool ((v i).slt 0#32)) _ _ = _
  have hs : (v i).slt 0#32 = false := by
    unfold BitVec.slt
    simp only [BitVec.toInt_zero, decide_eq_false_iff_not, not_lt]
    exact hv
  rw [hs]
  rfl

/-- A word whose signed value is the node n is clamped to n. -/
theorem clampRow_of_toInt {N : ℕ} (hN : 0 < N) (v : BitVec 32) (n : Fin N) (hv : v.toInt = (n.val : Int)) :
    clampRow N hN v = n := by
  refine Fin.ext ?_
  show min v.toInt.toNat (N - 1) = n.val
  rw [hv]
  have := n.isLt
  simp only [Int.toNat_natCast]
  omega

/-! ## The layer -/

/-- Entry (n, j): the sum over the edges with target n of xw (src e, j) * (dinv (src e) * dinv n). Here sW holds the
    source words as picking reads them, d the target words as adding reads them. -/
def layerSum {N C M : ℕ} (hN : 0 < N) (xw : FVec Ideal ⟨2, ![N, C]⟩ .f32) (dinv : FVec Ideal ⟨1, ![N]⟩ .f32)
    (sW d : IVec ⟨1, ![M]⟩ 32) : FVec Ideal ⟨2, ![N, C]⟩ .f32 :=
  fun i => ∑ e ∈ Finset.univ.filter (fun e : Fin M => (d (ix1 e)).toInt = ((i 0).val : Int)),
    xw (ix2 (clampRow N hN (sW (ix1 e))) (i 1)) * (dinv (ix1 (clampRow N hN (sW (ix1 e)))) * dinv (ix1 (i 0)))

theorem layerSum_apply {N C M : ℕ} (hN : 0 < N) (xw : FVec Ideal ⟨2, ![N, C]⟩ .f32) (dinv : FVec Ideal ⟨1, ![N]⟩ .f32)
    (sW d : IVec ⟨1, ![M]⟩ 32) (n : Fin N) (j : Fin C) :
    layerSum hN xw dinv sW d (ix2 n j) = ∑ e ∈ Finset.univ.filter (fun e : Fin M => (d (ix1 e)).toInt = (n.val : Int)),
      xw (ix2 (clampRow N hN (sW (ix1 e))) j) * (dinv (ix1 (clampRow N hN (sW (ix1 e)))) * dinv (ix1 n)) := rfl

/-- The per-edge program: each picked row times the product of the normalisation entries picked at the edge's source
    and at its target, added at the targets into zeros. -/
theorem edge_form {N C M : ℕ} (hN : 0 < N) (Nw : BitVec 32)
    (gwf : GatherDims.WF ⟨2, ![N, C]⟩ ⟨2, ![M, 1]⟩ ⟨2, ![M, C]⟩ [1] [0] [] [0] [] 1 ![1, C])
    (ewf : GatherDims.WF ⟨1, ![N]⟩ ⟨2, ![M, 1]⟩ ⟨1, ![M]⟩ [] [0] [] [0] [] 1 ![1])
    (swf : ScatterDims.WF ⟨2, ![N, C]⟩ ⟨2, ![M, 1]⟩ ⟨2, ![M, C]⟩ [1] [0] [0] 1)
    (hz : Sc.BroadcastsInDim ⟨2, ![N, C]⟩ ![]) (hzi : Sc.BroadcastsInDim ⟨1, ![M]⟩ ![])
    (hcol : (⟨1, ![M]⟩ : Shape).BroadcastsInDim ⟨2, ![M, 1]⟩ ![0])
    (hb2 : (⟨2, ![M, 1]⟩ : Shape).BroadcastsInDim ⟨2, ![M, C]⟩ ![0, 1])
    (xw : FVec Ideal ⟨2, ![N, C]⟩ .f32) (dinv : FVec Ideal ⟨1, ![N]⟩ .f32) (s d : IVec ⟨1, ![M]⟩ 32) :
    Host.scatterAdd (F := Ideal) (rowAddDims N C M swf)
        (broadcastInDim ⟨2, ![N, C]⟩ ![] hz (constant (F := Ideal) Sc .f32 0x00000000#32))
        (broadcastInDim ⟨2, ![M, 1]⟩ ![0] hcol d)
        (mulf (Host.gather (rowDims N C M gwf) xw (broadcastInDim ⟨2, ![M, 1]⟩ ![0] hcol (wrapIdx hzi Nw s)))
          (broadcastInDim ⟨2, ![M, C]⟩ ![0, 1] hb2 (broadcastInDim ⟨2, ![M, 1]⟩ ![0] hcol
            (mulf (Host.gather (entryDims N M ewf) dinv (broadcastInDim ⟨2, ![M, 1]⟩ ![0] hcol (wrapIdx hzi Nw s)))
              (Host.gather (entryDims N M ewf) dinv (broadcastInDim ⟨2, ![M, 1]⟩ ![0] hcol (wrapIdx hzi Nw d)))))))
      = layerSum hN xw dinv (wrapIdx hzi Nw s) d := by
  funext i
  obtain ⟨n, j, rfl⟩ : ∃ (n : Fin N) (j : Fin C), i = ix2 n j := ⟨i 0, i 1, eq_ix2 i⟩
  rw [hostScatterAdd_rows_apply, layerSum_apply, splat_apply]
  have hzero : constant (F := Ideal) Sc .f32 0x00000000#32 (fun a => a.elim0) = 0 := Ideal.ofBits_zero_f32
  rw [hzero, zero_add]
  have hcolidx : ∀ e : Fin M, broadcastInDim ⟨2, ![M, 1]⟩ ![0] hcol d (colIdx e) = d (ix1 e) := fun e => col_apply d hcol e _
  simp only [hcolidx]
  refine Finset.sum_congr rfl (fun e he => ?_)
  have hd : (d (ix1 e)).toInt = (n.val : Int) := (Finset.mem_filter.mp he).2
  rw [mulf_apply, gather_rows_apply hN, broadcastInDim_col_apply, col_apply, col_apply, mulf_apply, gather_entries_apply hN,
    gather_entries_apply hN, col_apply, col_apply,
    wrapIdx_of_nonneg hzi Nw d (ix1 e) (by rw [hd]; exact Int.natCast_nonneg _), clampRow_of_toInt hN _ n hd]

/-- The per-node program: xw scaled row by row by the normalisation column, rows picked (through a change of float
    format, which is the identity on exact values) and added at the targets into zeros, the sum scaled row by row again. -/
theorem node_form {N C M : ℕ} (hN : 0 < N) (Nw : BitVec 32)
    (gwf : GatherDims.WF ⟨2, ![N, C]⟩ ⟨2, ![M, 1]⟩ ⟨2, ![M, C]⟩ [1] [0] [] [0] [] 1 ![1, C])
    (swf : ScatterDims.WF ⟨2, ![N, C]⟩ ⟨2, ![M, 1]⟩ ⟨2, ![M, C]⟩ [1] [0] [0] 1)
    (hz : Sc.BroadcastsInDim ⟨2, ![N, C]⟩ ![]) (hzi : Sc.BroadcastsInDim ⟨1, ![M]⟩ ![])
    (hcol : (⟨1, ![M]⟩ : Shape).BroadcastsInDim ⟨2, ![M, 1]⟩ ![0])
    (hc : (⟨1, ![N]⟩ : Shape).ShapeCasts ⟨2, ![N, 1]⟩) (hbf : FTy.bf16.bits < FTy.f32.bits)
    (xw : FVec Ideal ⟨2, ![N, C]⟩ .f32) (dinv : FVec Ideal ⟨1, ![N]⟩ .f32) (s d : IVec ⟨1, ![M]⟩ 32)
    (hpos : ∀ n, 0 ≤ dinv n ∧ dinv n ≠ ⊤) :
    rowScale (Host.scatterAdd (F := Ideal) (rowAddDims N C M swf)
        (broadcastInDim ⟨2, ![N, C]⟩ ![] hz (constant (F := Ideal) Sc .f32 0x00000000#32))
        (broadcastInDim ⟨2, ![M, 1]⟩ ![0] hcol d)
        (extf .f32 (Host.gather (rowDims N C M gwf)
          (rowScale xw (shapeCast ⟨2, ![N, 1]⟩ dinv hc) : FVec Ideal ⟨2, ![N, C]⟩ .bf16)
          (broadcastInDim ⟨2, ![M, 1]⟩ ![0] hcol (wrapIdx hzi Nw s)) : FVec Ideal ⟨2, ![M, C]⟩ .bf16) hbf))
        (shapeCast ⟨2, ![N, 1]⟩ dinv hc)
      = layerSum hN xw dinv (wrapIdx hzi Nw s) d := by
  funext i
  obtain ⟨n, j, rfl⟩ : ∃ (n : Fin N) (j : Fin C), i = ix2 n j := ⟨i 0, i 1, eq_ix2 i⟩
  have hcast : ∀ p : Fin N, shapeCast ⟨2, ![N, 1]⟩ dinv hc (ix2 p (0 : Fin 1)) = dinv (ix1 p) := fun p =>
    shapeCast_apply dinv hc _ _ (by
      rw [Shape.rowMajor_val_two, Shape.rowMajor_val_one]
      show p.val = p.val * 1 + 0
      omega)
  rw [rowScale_apply, hostScatterAdd_rows_apply, layerSum_apply, splat_apply, hcast]
  have hzero : constant (F := Ideal) Sc .f32 0x00000000#32 (fun a => a.elim0) = 0 := Ideal.ofBits_zero_f32
  rw [hzero, zero_add, sum_mul_of_nonneg_ne_top _ _ (hpos (ix1 n)).1 (hpos (ix1 n)).2]
  have hcolidx : ∀ e : Fin M, broadcastInDim ⟨2, ![M, 1]⟩ ![0] hcol d (colIdx e) = d (ix1 e) := fun e => col_apply d hcol e _
  simp only [hcolidx]
  refine Finset.sum_congr rfl (fun e _ => ?_)
  rw [extf_apply, gather_rows_apply hN, col_apply, rowScale_apply, hcast, mul_assoc]

end Cert.GcnSpec

end
-- ==== Proof.RefValue.lean ====
/-
  The reference, stage by stage, in the layer's vocabulary. Its three scatter-add stages are each the per-edge form of
  the layer (`GcnSpec.edge_form`): the picked rows of the previous product times the product of the normalisation
  entries picked at each edge's two ends, added at the targets. Its three contractions are matrix products, its two
  relu stages are a bias row added and a clamp at zero, and the index words and the normalisation vector, which the
  reference computes afresh for each layer, are the same three terms each time.
-/
import proofs.«146662_j49950469653067_2_alg».proof.Proof.RefRead
import proofs.«146662_j49950469653067_2_alg».proof.Proof.Spec
import proofs.«146662_j49950469653067_2_alg».proof.Proof.LibMatProd
import proofs.«146662_j49950469653067_2_alg».proof.Proof.LibBiasRelu

set_option maxRecDepth 16384

noncomputable section

namespace Cert.ReferenceIdeal.RVal

open Cert.ReferenceIdeal Cert.ReferenceIdeal.Gen Cert.ReferenceIdeal.ReadP
open Idealize.ShloMosaic Idealize.ShloMosaic.ValueIdx
open Cert.GcnSpec Cert.LibSegment Cert.LibMatProd Cert.LibBiasRelu Cert.LibRowScale

variable (x0 : (⟨S50000x128, .f32⟩ : BufTy).Contents (Elt Ideal)) (x1 : (⟨S2x800000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x2, .f32⟩ : BufTy).Contents (Elt Ideal)) (x8 : (⟨S2, .f32⟩ : BufTy).Contents (Elt Ideal))

theorem hN : 0 < 50000 := by decide

/-- The source words, the target words and the normalisation vector, by the names the first layer gives them. -/
abbrev sW : IVec ⟨1, ![850000]⟩ 32 := wrapIdx Facts₀.bcast_S_S850000 50000#32 (val_main_v6 (F := Ideal) x1)
abbrev dst : IVec ⟨1, ![850000]⟩ 32 := val_main_v7 (F := Ideal) x1
abbrev dinv : FVec Ideal ⟨1, ![50000]⟩ .f32 := val_main_v15 (F := Ideal) x1

/-- The normalisation vector is one over the square root of the degree, a degree that is not positive replaced by one. -/
theorem dinv_eq : dinv x1 = dinvOf Facts₀.bcast_S_S50000 (val_main_v11 (F := Ideal) x1) := rfl

theorem dinv_pos (n : (⟨1, ![50000]⟩ : Shape).Idx) : 0 ≤ dinv x1 n ∧ dinv x1 n ≠ ⊤ := by
  rw [dinv_eq]; exact dinvOf_nonneg_ne_top _ _ n

/-- The later layers recompute the same words and the same vector. -/
theorem src2 : val_main_v50 (F := Ideal) x1 = val_main_v6 (F := Ideal) x1 := rfl
theorem dst2 : val_main_v51 (F := Ideal) x1 = val_main_v7 (F := Ideal) x1 := rfl
theorem dinv2 : val_main_v59 (F := Ideal) x1 = val_main_v15 (F := Ideal) x1 := rfl
theorem src3 : val_main_v94 (F := Ideal) x1 = val_main_v6 (F := Ideal) x1 := rfl
theorem dst3 : val_main_v95 (F := Ideal) x1 = val_main_v7 (F := Ideal) x1 := rfl
theorem dinv3 : val_main_v103 (F := Ideal) x1 = val_main_v15 (F := Ideal) x1 := rfl

/-- The first layer's scatter-add stage. -/
theorem layer1 : val_main_v43 (F := Ideal) x0 x1 x3
    = layerSum (N := 50000) (C := 64) (M := 850000) hN (val_main_v4 (F := Ideal) x0 x3) (dinv x1) (sW x1) (dst x1) :=
  edge_form (N := 50000) (C := 64) (M := 850000) hN 50000#32 _ _ _ _ _ _ _ (val_main_v4 (F := Ideal) x0 x3) (val_main_v15 (F := Ideal) x1)
    (val_main_v6 (F := Ideal) x1) (val_main_v7 (F := Ideal) x1)

/-- The second layer's. -/
theorem layer2 : val_main_v87 (F := Ideal) x0 x1 x3 x4 x5
    = layerSum (N := 50000) (C := 64) (M := 850000) hN (val_main_v48 (F := Ideal) x0 x1 x3 x4 x5) (dinv x1) (sW x1) (dst x1) :=
  edge_form (N := 50000) (C := 64) (M := 850000) hN 50000#32 _ _ _ _ _ _ _ (val_main_v48 (F := Ideal) x0 x1 x3 x4 x5) (val_main_v15 (F := Ideal) x1)
    (val_main_v6 (F := Ideal) x1) (val_main_v7 (F := Ideal) x1)

/-- The third layer's. -/
theorem layer3 : val_main_v131 (F := Ideal) x0 x1 x3 x4 x5 x6 x7
    = layerSum (N := 50000) (C := 2) (M := 850000) hN (val_main_v92 (F := Ideal) x0 x1 x3 x4 x5 x6 x7) (dinv x1) (sW x1) (dst x1) :=
  edge_form (N := 50000) (C := 2) (M := 850000) hN 50000#32 _ _ _ _ _ _ _ (val_main_v92 (F := Ideal) x0 x1 x3 x4 x5 x6 x7) (val_main_v15 (F := Ideal) x1)
    (val_main_v6 (F := Ideal) x1) (val_main_v7 (F := Ideal) x1)

/-- The contractions are matrix products. -/
theorem prod1 : val_main_v4 (F := Ideal) x0 x3 = matProd (M := 50000) (K := 128) (N := 64) x0 x3 :=
  host_dot_eq dot_S50000x128_S128x64_S50000x64_1_0_0_1_n_n rfl rfl rfl rfl rfl rfl x0 x3
theorem prod2 : val_main_v48 (F := Ideal) x0 x1 x3 x4 x5
    = matProd (M := 50000) (K := 64) (N := 64) (val_main_v47 (F := Ideal) x0 x1 x3 x4) x5 :=
  host_dot_eq dot_S50000x64_S64x64_S50000x64_1_0_0_1_n_n rfl rfl rfl rfl rfl rfl _ x5
theorem prod3 : val_main_v92 (F := Ideal) x0 x1 x3 x4 x5 x6 x7
    = matProd (M := 50000) (K := 64) (N := 2) (val_main_v91 (F := Ideal) x0 x1 x3 x4 x5 x6) x7 :=
  host_dot_eq dot_S50000x64_S64x2_S50000x2_1_0_0_1_n_n rfl rfl rfl rfl rfl rfl _ x7

/-- The relu stages: the bias broadcast to one row, added, clamped below at zero. -/
theorem relu1 : val_main_v47 (F := Ideal) x0 x1 x3 x4
    = biasRelu (M := 50000) (N := 64) (val_main_v43 (F := Ideal) x0 x1 x3) (val_main_v44 (F := Ideal) x4) :=
  host_form (M := 50000) (N := 64) (val_main_v43 (F := Ideal) x0 x1 x3) (val_main_v44 (F := Ideal) x4) _ _
theorem relu2 : val_main_v91 (F := Ideal) x0 x1 x3 x4 x5 x6
    = biasRelu (M := 50000) (N := 64) (val_main_v87 (F := Ideal) x0 x1 x3 x4 x5) (val_main_v88 (F := Ideal) x6) :=
  host_form (M := 50000) (N := 64) (val_main_v87 (F := Ideal) x0 x1 x3 x4 x5) (val_main_v88 (F := Ideal) x6) _ _

end Cert.ReferenceIdeal.RVal

end
-- ==== Proof.KernelValue.lean ====
/-
  The idealized kernel's result, read down to the argument arrays. The program is eleven segments; the contents of
  every buffer at each boundary are the fold `Gen.W0 … Gen.W11`. Reading a buffer at a boundary walks back through
  the segments: a stretch of host operations gives the operation's function of its operands' contents one boundary
  earlier; a kernel region leaves every buffer it does not write as it was, and its output array at the whole-array
  function found in `Region0`, `Region1`, `Region2`. The source words, the target words and the normalisation column
  are computed before the first region and never written again, so every later boundary holds them unchanged; they
  are the same terms the reference computes, and are named here by the reference's stages.
-/
import proofs.«146662_j49950469653067_2_alg».proof.Proof.Gen.KernelIdeal.Frame
import proofs.«146662_j49950469653067_2_alg».proof.Proof.LibReadBack
import proofs.«146662_j49950469653067_2_alg».proof.Proof.LibTypedRef
import proofs.«146662_j49950469653067_2_alg».proof.Proof.Region0
import proofs.«146662_j49950469653067_2_alg».proof.Proof.Region1
import proofs.«146662_j49950469653067_2_alg».proof.Proof.Region2
import proofs.«146662_j49950469653067_2_alg».proof.Proof.Spec
import proofs.«146662_j49950469653067_2_alg».proof.Proof.RefValue

set_option maxRecDepth 16384

noncomputable section

namespace Cert.KernelIdeal.KVal

open Cert.KernelIdeal Cert.KernelIdeal.Gen Cert.Lib
open Idealize.ShloMosaic Idealize.ShloMosaic.TcCoe Idealize.ShloMosaic.StableHlo Idealize.SL.Sem
open Idealize.ShloMosaic.ValueIdx
open Cert.GcnSpec Cert.LibMatProd Cert.LibRowScale Cert.LibBiasRelu
open Cert.ReferenceIdeal.ReadP

variable (m : (ℓ : Loc nD τ sig) → Buf (Elt Ideal) ℓ) (ρ : Dev nD → PrngReg) (c : Dev nD)

/-! ## The normalisation column passes through each region as an input window -/

theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W8_v15 : W8 m ρ c (Proc.devRef .tc main_v15) = W7 m ρ c (Proc.devRef .tc main_v15) :=
  (W8_arr m ρ c 1).trans (((dat2 (V7 m ρ) c).arrAt_in 1 rfl _).trans (A_eq2 (V7 m ρ) c 1))

/-- One step back through the fold wherever a step applies, repeated, down to the first region's entry: across a region for
    a buffer the region does not write (the source and target words, the argument arrays read later), across a region
    for the normalisation column, across a stretch of host operations. -/
macro "descend_to_entry" : tactic => `(tactic| repeat (first
    | (dsimp only [W11, hostOps3_2]; read_back)
    | (dsimp only [W10, hostOps3_1]; read_back)
    | (dsimp only [W9, hostOps3]; read_back)
    | (dsimp only [W7, hostOps2]; read_back)
    | (dsimp only [W5, hostOps1]; read_back)
    | rw [W8_v15] | rw [W6_v15] | rw [W4_v15]
    | (rw [W8_of_ne (b := main_v5)]; rotate_left; decide)
    | (rw [W8_of_ne (b := main_v6)]; rotate_left; decide)
    | (rw [W8_of_ne (b := main_arg2)]; rotate_left; decide)
    | (rw [W8_of_ne (b := main_arg4)]; rotate_left; decide)
    | (rw [W8_of_ne (b := main_arg5)]; rotate_left; decide)
    | (rw [W8_of_ne (b := main_arg6)]; rotate_left; decide)
    | (rw [W8_of_ne (b := main_arg7)]; rotate_left; decide)
    | (rw [W8_of_ne (b := main_arg8)]; rotate_left; decide)
    | (rw [W6_of_ne (b := main_v5)]; rotate_left; decide)
    | (rw [W6_of_ne (b := main_v6)]; rotate_left; decide)
    | (rw [W6_of_ne (b := main_arg2)]; rotate_left; decide)
    | (rw [W6_of_ne (b := main_arg4)]; rotate_left; decide)
    | (rw [W6_of_ne (b := main_arg5)]; rotate_left; decide)
    | (rw [W6_of_ne (b := main_arg6)]; rotate_left; decide)
    | (rw [W6_of_ne (b := main_arg7)]; rotate_left; decide)
    | (rw [W6_of_ne (b := main_arg8)]; rotate_left; decide)
    | (rw [W4_of_ne (b := main_v5)]; rotate_left; decide)
    | (rw [W4_of_ne (b := main_v6)]; rotate_left; decide)
    | (rw [W4_of_ne (b := main_arg2)]; rotate_left; decide)
    | (rw [W4_of_ne (b := main_arg4)]; rotate_left; decide)
    | (rw [W4_of_ne (b := main_arg5)]; rotate_left; decide)
    | (rw [W4_of_ne (b := main_arg6)]; rotate_left; decide)
    | (rw [W4_of_ne (b := main_arg7)]; rotate_left; decide)
    | (rw [W4_of_ne (b := main_arg8)]; rotate_left; decide)))

/-- The same, continued through the host operations before the first region down to the launch contents. -/
macro "descend" : tactic => `(tactic| repeat (first
    | (dsimp only [W11, hostOps3_2]; read_back)
    | (dsimp only [W10, hostOps3_1]; read_back)
    | (dsimp only [W9, hostOps3]; read_back)
    | (dsimp only [W7, hostOps2]; read_back)
    | (dsimp only [W5, hostOps1]; read_back)
    | (dsimp only [W3, hostOps0_2]; read_back)
    | (dsimp only [W2, hostOps0_1]; read_back)
    | (dsimp only [W1, hostOps0]; read_back)
    | rw [W8_v15] | rw [W6_v15] | rw [W4_v15]
    | (rw [W8_of_ne (b := main_v5)]; rotate_left; decide)
    | (rw [W8_of_ne (b := main_v6)]; rotate_left; decide)
    | (rw [W8_of_ne (b := main_arg2)]; rotate_left; decide)
    | (rw [W8_of_ne (b := main_arg4)]; rotate_left; decide)
    | (rw [W8_of_ne (b := main_arg5)]; rotate_left; decide)
    | (rw [W8_of_ne (b := main_arg6)]; rotate_left; decide)
    | (rw [W8_of_ne (b := main_arg7)]; rotate_left; decide)
    | (rw [W8_of_ne (b := main_arg8)]; rotate_left; decide)
    | (rw [W6_of_ne (b := main_v5)]; rotate_left; decide)
    | (rw [W6_of_ne (b := main_v6)]; rotate_left; decide)
    | (rw [W6_of_ne (b := main_arg2)]; rotate_left; decide)
    | (rw [W6_of_ne (b := main_arg4)]; rotate_left; decide)
    | (rw [W6_of_ne (b := main_arg5)]; rotate_left; decide)
    | (rw [W6_of_ne (b := main_arg6)]; rotate_left; decide)
    | (rw [W6_of_ne (b := main_arg7)]; rotate_left; decide)
    | (rw [W6_of_ne (b := main_arg8)]; rotate_left; decide)
    | (rw [W4_of_ne (b := main_v5)]; rotate_left; decide)
    | (rw [W4_of_ne (b := main_v6)]; rotate_left; decide)
    | (rw [W4_of_ne (b := main_arg2)]; rotate_left; decide)
    | (rw [W4_of_ne (b := main_arg4)]; rotate_left; decide)
    | (rw [W4_of_ne (b := main_arg5)]; rotate_left; decide)
    | (rw [W4_of_ne (b := main_arg6)]; rotate_left; decide)
    | (rw [W4_of_ne (b := main_arg7)]; rotate_left; decide)
    | (rw [W4_of_ne (b := main_arg8)]; rotate_left; decide)))

/-! ## What the first region finds -/

/-- The source words are the reference's. -/
theorem src_eq : W3 m ρ c (Proc.devRef .tc main_v5) = val_main_v6 (F := Ideal) (m ((c : Thread nD τ).loc main_arg1)) := by
  descend
  rfl

/-- The target words are the reference's. -/
theorem dst_eq : W3 m ρ c (Proc.devRef .tc main_v6) = val_main_v7 (F := Ideal) (m ((c : Thread nD τ).loc main_arg1)) := by
  descend
  rfl

/-- The degree vector is the reference's. -/
theorem deg_eq : W1 m ρ c (Proc.devRef .tc main_v10) = val_main_v11 (F := Ideal) (m ((c : Thread nD τ).loc main_arg1)) := by
  descend
  rfl

/-- Which degrees are positive. -/
theorem pos_eq : W1 m ρ c (Proc.devRef .tc main_v12) = val_main_v13 (F := Ideal) (m ((c : Thread nD τ).loc main_arg1)) := by
  descend
  rfl

/-- The selection read through the typed references of the outlined function, for arbitrary operands: the transports
    are along reflexive equations, so they change nothing. -/
theorem sel_shape (A : (⟨S50000, .i1⟩ : BufTy).Contents (Elt Ideal)) (B C : (⟨S50000, .f32⟩ : BufTy).Contents (Elt Ideal)) :
    ((TRef.of main_v13 : TRef sig ⟨S50000, .f32⟩).toBuf
      (select ((TRef.of main_v12 : TRef sig ⟨S50000, .i1⟩).ofBuf A) ((TRef.of main_v10 : TRef sig ⟨S50000, .f32⟩).ofBuf B) C)
        : (⟨S50000, .f32⟩ : BufTy).Contents (Elt Ideal)) = select A B C := rfl

/-- The broadcast one of the selection is the reference's. -/
theorem one_shape : (broadcastInDim S50000 ![] Facts₀.bcast_S_S50000
      (id ((TRef.of main_cst_2 : TRef sig ⟨S_, .f32⟩).ofBuf (val_main_cst_2 (F := Ideal))))
        : (⟨S50000, .f32⟩ : BufTy).Contents (Elt Ideal))
    = val_main_call0_v1 (F := Ideal) := rfl

/-- The degree, a degree that is not positive replaced by one. -/
theorem sel_eq : W2 m ρ c (Proc.devRef .tc main_v13) = val_main_v14 (F := Ideal) (m ((c : Thread nD τ).loc main_arg1)) := by
  show StableHlo.after hostOps0_1 (W1 m ρ c) (Proc.devRef .tc main_v13) = _
  generalize hV : W1 m ρ c = V1
  dsimp only [hostOps0_1]
  read_back
  simp only [ofBuf_toBuf]
  rw [← hV, deg_eq, pos_eq]
  have hone : W1 m ρ c (Proc.devRef .tc main_cst_2) = val_main_cst_2 (F := Ideal) := by descend; rfl
  rw [hone]
  refine (sel_shape _ _ _).trans ?_
  unfold val_main_v14
  exact congrArg (select _ _) one_shape

/-- A vector re-laid as one column, as the reshape writes it. -/
theorem col_shape (X : FVec Ideal S50000 .f32) :
    ((fun i => shapeCast main_v15.ty.shape (Host.rsqrt (F := Ideal) X) Facts₀.shapeCasts_S50000_S50000x1 i) : S50000x1.Idx → EReal)
      = shapeCast S50000x1 (Host.rsqrt (F := Ideal) X) Facts₀.shapeCasts_S50000_S50000x1 := rfl

/-- The normalisation column is the reference's normalisation vector, re-laid as one column. -/
theorem col_eq : W3 m ρ c (Proc.devRef .tc main_v15)
    = shapeCast S50000x1 (val_main_v15 (F := Ideal) (m ((c : Thread nD τ).loc main_arg1))) Facts₀.shapeCasts_S50000_S50000x1 := by
  show StableHlo.after hostOps0_2 (W2 m ρ c) (Proc.devRef .tc main_v15) = _
  generalize hV : W2 m ρ c = V2
  dsimp only [hostOps0_2]
  read_back
  rw [← hV, sel_eq]
  unfold val_main_v15
  exact col_shape _

theorem arg0_eq : W3 m ρ c (Proc.devRef .tc main_arg0) = m ((c : Thread nD τ).loc main_arg0) := by descend
theorem arg3_eq : W3 m ρ c (Proc.devRef .tc main_arg3) = m ((c : Thread nD τ).loc main_arg3) := by descend

/-! ## The layers, in the reference's names -/

set_option quotPrecheck false

local notation "a0" => (m ((c : Thread nD τ).loc main_arg0) : S50000x128.Idx → EReal)
local notation "a1" => (m ((c : Thread nD τ).loc main_arg1) : S2x800000.Idx → BitVec 32)
local notation "a2" => (m ((c : Thread nD τ).loc main_arg2) : S50000.Idx → BitVec 32)
local notation "a3" => (m ((c : Thread nD τ).loc main_arg3) : S128x64.Idx → EReal)
local notation "a4" => (m ((c : Thread nD τ).loc main_arg4) : S64.Idx → EReal)
local notation "a5" => (m ((c : Thread nD τ).loc main_arg5) : S64x64.Idx → EReal)
local notation "a6" => (m ((c : Thread nD τ).loc main_arg6) : S64.Idx → EReal)
local notation "a7" => (m ((c : Thread nD τ).loc main_arg7) : S64x2.Idx → EReal)
local notation "a8" => (m ((c : Thread nD τ).loc main_arg8) : S2.Idx → EReal)

open Cert.ReferenceIdeal.RVal (hN sW dst dinv dinv_pos)

/-- The normalisation column. -/
abbrev colv : FVec Ideal ⟨2, ![50000, 1]⟩ .f32 :=
  shapeCast S50000x1 (val_main_v15 (F := Ideal) a1) Facts₀.shapeCasts_S50000_S50000x1

/-- One layer's aggregation of a matrix of C columns. -/
abbrev agg (C : ℕ) (xw : FVec Ideal ⟨2, ![50000, C]⟩ .f32) : FVec Ideal ⟨2, ![50000, C]⟩ .f32 :=
  layerSum (N := 50000) (C := C) (M := 850000) hN xw (dinv a1) (sW a1) (dst a1)

/-- The features times the first weights; the first hidden layer; its product with the second weights; the second
    hidden layer; its product with the third weights. -/
abbrev xw1 : FVec Ideal ⟨2, ![50000, 64]⟩ .f32 := matProd (M := 50000) (K := 128) (N := 64) a0 a3
abbrev hid1 : FVec Ideal ⟨2, ![50000, 64]⟩ .f32 :=
  biasRelu (M := 50000) (N := 64) (agg m c 64 (xw1 m c)) (shapeCast S1x64 a4 Facts₀.shapeCasts_S64_S1x64)
abbrev xw2 : FVec Ideal ⟨2, ![50000, 64]⟩ .f32 := matProd (M := 50000) (K := 64) (N := 64) (hid1 m c) a5
abbrev hid2 : FVec Ideal ⟨2, ![50000, 64]⟩ .f32 :=
  biasRelu (M := 50000) (N := 64) (agg m c 64 (xw2 m c)) (shapeCast S1x64 a6 Facts₀.shapeCasts_S64_S1x64)
abbrev xw3 : FVec Ideal ⟨2, ![50000, 2]⟩ .f32 := matProd (M := 50000) (K := 64) (N := 2) (hid2 m c) a7

/-! ## Layer one -/

/-- The first region's output: the features times the first weights, scaled row by row by the normalisation column. -/
theorem out1_eq : W4 m ρ c (Proc.devRef .tc main_v16) = rowScale (xw1 m c) (colv m c) := by
  refine (W4_arr m ρ c 3).trans ((Region0.final (V3 m ρ) c).trans ?_)
  unfold Region0.G
  dsimp only [V3]
  rw [arg0_eq, arg3_eq, col_eq]

/-- The first aggregation, scaled by the normalisation column, is the layer's aggregation of the first product. -/
theorem agg1_eq : rowScale (M := 50000) (N := 64) (W5 m ρ c (Proc.devRef .tc main_v27)) (colv m c) = agg m c 64 (xw1 m c) := by
  descend_to_entry
  rw [out1_eq, src_eq, dst_eq]
  exact node_form (N := 50000) (C := 64) (M := 850000) hN 50000#32 _ _ _ _ _ _ _ (xw1 m c) (val_main_v15 (F := Ideal) a1)
    (val_main_v6 (F := Ideal) a1) (val_main_v7 (F := Ideal) a1) (dinv_pos a1)

/-! ## Layer two -/

/-- The second region's output. -/
theorem out2_eq : W6 m ρ c (Proc.devRef .tc main_v29) = rowScale (xw2 m c) (colv m c) := by
  refine (W6_arr m ρ c 4).trans ((Region1.final (V5 m ρ) c).trans ?_)
  unfold Region1.G Region1.layer
  dsimp only [V5]
  have e15 : W5 m ρ c (Proc.devRef .tc main_v15) = colv m c := by descend_to_entry; exact col_eq m ρ c
  have e28 : W5 m ρ c (Proc.devRef .tc main_v28) = shapeCast S1x64 a4 Facts₀.shapeCasts_S64_S1x64 := by descend; rfl
  have e5 : W5 m ρ c (Proc.devRef .tc main_arg5) = a5 := by descend
  rw [e15, e28, e5, agg1_eq]

/-- The second aggregation. -/
theorem agg2_eq : rowScale (M := 50000) (N := 64) (W7 m ρ c (Proc.devRef .tc main_v40)) (colv m c) = agg m c 64 (xw2 m c) := by
  descend_to_entry
  rw [out2_eq, src_eq, dst_eq]
  exact node_form (N := 50000) (C := 64) (M := 850000) hN 50000#32 _ _ _ _ _ _ _ (xw2 m c) (val_main_v15 (F := Ideal) a1)
    (val_main_v6 (F := Ideal) a1) (val_main_v7 (F := Ideal) a1) (dinv_pos a1)

/-! ## Layer three -/

/-- The third region's output. -/
theorem out3_eq : W8 m ρ c (Proc.devRef .tc main_v42) = rowScale (xw3 m c) (colv m c) := by
  refine (W8_arr m ρ c 4).trans ((Region2.final (V7 m ρ) c).trans ?_)
  unfold Region2.G Region1.layer
  dsimp only [V7]
  have e15 : W7 m ρ c (Proc.devRef .tc main_v15) = colv m c := by descend_to_entry; exact col_eq m ρ c
  have e41 : W7 m ρ c (Proc.devRef .tc main_v41) = shapeCast S1x64 a6 Facts₀.shapeCasts_S64_S1x64 := by descend; rfl
  have e7 : W7 m ρ c (Proc.devRef .tc main_arg7) = a7 := by descend
  rw [e15, e41, e7, agg2_eq]

/-- The third aggregation. -/
theorem agg3_eq : rowScale (M := 50000) (N := 2) (W9 m ρ c (Proc.devRef .tc main_v53)) (colv m c) = agg m c 2 (xw3 m c) := by
  descend_to_entry
  rw [out3_eq, src_eq, dst_eq]
  exact node_form (N := 50000) (C := 2) (M := 850000) hN 50000#32 _ _ _ _ _ _ _ (xw3 m c) (val_main_v15 (F := Ideal) a1)
    (val_main_v6 (F := Ideal) a1) (val_main_v7 (F := Ideal) a1) (dinv_pos a1)

/-! ## The last stretch of host operations -/

/-- The normalisation column at the last region's exit. -/
theorem col8 : W8 m ρ c (Proc.devRef .tc main_v15) = colv m c := by
  descend_to_entry
  exact col_eq m ρ c

/-- The convolution's output before the bias: the third aggregation times the broadcast normalisation column, plus the
    broadcast bias row (one step of the fold, read on both sides). -/
theorem z_split : W9 m ρ c (Proc.devRef .tc main_v58)
    = addf (F := Ideal) (s := S50000x2) (φ := .f32)
        (mulf (F := Ideal) (s := S50000x2) (φ := .f32) (W9 m ρ c (Proc.devRef .tc main_v53))
          (broadcastInDim S50000x2 ![0, 1] Facts₀.bcast_S50000x1_S50000x2_0_1 (W8 m ρ c (Proc.devRef .tc main_v15))))
        (W9 m ρ c (Proc.devRef .tc main_v57)) := by
  dsimp only [W9]
  generalize W8 m ρ c = V8
  dsimp only [hostOps3]
  read_back

/-- A vector re-laid as one row, as the reshape writes it, then broadcast down the rows. -/
theorem row_shape (X : (⟨S2, .f32⟩ : BufTy).Contents (Elt Ideal)) :
    (broadcastInDim S50000x2 ![0, 1] Facts₀.bcast_S1x2_S50000x2_0_1
        (fun i => shapeCast main_v56.ty.shape X Facts₀.shapeCasts_S2_S1x2 i) : (⟨S50000x2, .f32⟩ : BufTy).Contents (Elt Ideal))
      = broadcastInDim S50000x2 ![0, 1] Facts₀.bcast_S1x2_S50000x2_0_1 (shapeCast S1x2 X Facts₀.shapeCasts_S2_S1x2) := rfl

/-- The reference's bias rows, re-laid. -/
theorem rowC : val_main_v132 (F := Ideal) a8 = shapeCast S1x2 a8 Facts₀.shapeCasts_S2_S1x2 :=
  (row_cast_eq_bcast (a := 2) a8 _ _).symm
theorem rowA : val_main_v44 (F := Ideal) a4 = shapeCast S1x64 a4 Facts₀.shapeCasts_S64_S1x64 :=
  (row_cast_eq_bcast (a := 64) a4 _ _).symm
theorem rowB : val_main_v88 (F := Ideal) a6 = shapeCast S1x64 a6 Facts₀.shapeCasts_S64_S1x64 :=
  (row_cast_eq_bcast (a := 64) a6 _ _).symm

/-- The broadcast bias row of the last layer is the reference's. -/
theorem row8 : W9 m ρ c (Proc.devRef .tc main_v57) = val_main_v133 (F := Ideal) a8 := by
  have e8 : W8 m ρ c (Proc.devRef .tc main_arg8) = a8 := by descend
  dsimp only [W9]
  generalize hV : W8 m ρ c = V8
  dsimp only [hostOps3]
  read_back
  rw [← hV, e8]
  refine (row_shape _).trans ?_
  unfold val_main_v133
  rw [rowC]

/-- The convolution's output is the reference's. -/
theorem z_eq : W9 m ρ c (Proc.devRef .tc main_v58) = val_main_v134 (F := Ideal) a0 a1 a3 a4 a5 a6 a7 a8 := by
  rw [z_split, col8, row8, mul_broadcastInDim_eq (M := 50000) (N := 2), agg3_eq]
  unfold val_main_v134
  rw [Cert.ReferenceIdeal.RVal.layer3, Cert.ReferenceIdeal.RVal.prod3, Cert.ReferenceIdeal.RVal.relu2, rowB,
    Cert.ReferenceIdeal.RVal.layer2, Cert.ReferenceIdeal.RVal.prod2, Cert.ReferenceIdeal.RVal.relu1, rowA,
    Cert.ReferenceIdeal.RVal.layer1, Cert.ReferenceIdeal.RVal.prod1]

/-- The pooled sums: the convolution's output added at each node's graph (one step of the fold). -/
theorem num_split : W9 m ρ c (Proc.devRef .tc main_v61)
    = Host.scatterAdd (F := Ideal) (φ := .f32) scatter_S512x2_S50000x1_S50000x2_1_0_0_1 (W9 m ρ c (Proc.devRef .tc main_v59))
        (W9 m ρ c (Proc.devRef .tc main_v60)) (W9 m ρ c (Proc.devRef .tc main_v58)) := by
  dsimp only [W9]
  generalize W8 m ρ c = V8
  dsimp only [hostOps3]
  read_back

/-- The pooled sums are the reference's. -/
theorem num_eq : W9 m ρ c (Proc.devRef .tc main_v61) = val_main_v137 (F := Ideal) a0 a1 a2 a3 a4 a5 a6 a7 a8 := by
  have e59 : W9 m ρ c (Proc.devRef .tc main_v59) = val_main_v135 (F := Ideal) := by descend; rfl
  have e60 : W9 m ρ c (Proc.devRef .tc main_v60) = val_main_v136 (F := Ideal) a2 := by descend; rfl
  rw [num_split, e59, e60, z_eq]
  unfold val_main_v137
  generalize val_main_v134 (F := Ideal) a0 a1 a3 a4 a5 a6 a7 a8 = Z
  rfl

/-- The node counts per graph are the reference's. -/
theorem cnt_eq : W9 m ρ c (Proc.devRef .tc main_v65) = val_main_v141 (F := Ideal) a2 := by
  descend
  rfl

/-- The clamp of the counts below at one, read through the typed references of the outlined function, for arbitrary
    operands. -/
theorem clip_shape (B : (⟨S512, .f32⟩ : BufTy).Contents (Elt Ideal)) (O : (⟨S512, .f32⟩ : BufTy).Contents (Elt Ideal)) :
    ((TRef.of main_v66 : TRef sig ⟨S512, .f32⟩).toBuf
      (maximumf (F := Ideal) (s := S512) (φ := .f32) O ((TRef.of main_v65 : TRef sig ⟨S512, .f32⟩).ofBuf B))
        : (⟨S512, .f32⟩ : BufTy).Contents (Elt Ideal)) = maximumf (F := Ideal) (s := S512) (φ := .f32) O B := rfl

/-- The broadcast one of the clamp is the reference's. -/
theorem one512_shape : (broadcastInDim S512 ![] Facts₀.bcast_S_S512
      (id ((TRef.of main_cst_14 : TRef sig ⟨S_, .f32⟩).ofBuf (val_main_cst_34 (F := Ideal))))
        : (⟨S512, .f32⟩ : BufTy).Contents (Elt Ideal))
    = val_main_call5_v1 (F := Ideal) := rfl

/-- The clamped counts are the reference's. -/
theorem clip_eq : W10 m ρ c (Proc.devRef .tc main_v66) = val_main_v142 (F := Ideal) a2 := by
  have hone : W9 m ρ c (Proc.devRef .tc main_cst_14) = val_main_cst_34 (F := Ideal) := by descend; rfl
  dsimp only [W10]
  generalize hV : W9 m ρ c = V9
  dsimp only [hostOps3_1]
  read_back
  simp only [ofBuf_toBuf]
  rw [← hV, cnt_eq, hone]
  refine (clip_shape _ _).trans ?_
  unfold val_main_v142
  exact congrArg (fun o => maximumf (F := Ideal) (s := S512) (φ := .f32) o _) one512_shape

/-- The result: the pooled sums divided by the clamped counts, broadcast across the two columns (one step of the fold). -/
theorem res_split : W11 m ρ c (Proc.devRef .tc main_v69)
    = Host.divf (F := Ideal) (s := S512x2) (φ := .f32) (W10 m ρ c (Proc.devRef .tc main_v61))
        (broadcastInDim S512x2 ![0, 1] Facts₀.bcast_S512x1_S512x2_0_1
          (broadcastInDim S512x1 ![0] Facts₀.bcast_S512_S512x1_0 (W10 m ρ c (Proc.devRef .tc main_v66)))) := by
  dsimp only [W11]
  generalize W10 m ρ c = V10
  dsimp only [hostOps3_2]
  read_back

/-- The clamp's stretch does not write the pooled sums. -/
theorem num10 : W10 m ρ c (Proc.devRef .tc main_v61) = W9 m ρ c (Proc.devRef .tc main_v61) := by
  dsimp only [W10]
  generalize W9 m ρ c = V9
  dsimp only [hostOps3_1]
  read_back

/-- THE KERNEL'S RESULT is the reference's result term of the same argument arrays. -/
theorem result_eq : W11 m ρ c (Proc.devRef .tc main_v69) = val_main_v145 (F := Ideal) a0 a1 a2 a3 a4 a5 a6 a7 a8 := by
  rw [res_split, num10, num_eq, clip_eq]
  unfold val_main_v145 val_main_v144 val_main_v143
  generalize val_main_v137 (F := Ideal) a0 a1 a2 a3 a4 a5 a6 a7 a8 = Nm
  generalize val_main_v142 (F := Ideal) a2 = Dn
  rfl

end Cert.KernelIdeal.KVal

end
-- ==== Proof.lean ====
/-
  Three graph-convolution layers with symmetric degree normalisation, then a mean over each graph's nodes: the kernel
  against its reference, over the extended reals.

  Write dinv for one over the square root of a node's degree (self-loops included; a degree that is not positive is
  replaced by one). For each layer the reference multiplies every picked row xw (src e) by dinv (src e) * dinv (dst e) and
  adds it at dst e. The kernel instead scales the rows of xw by dinv inside a kernel region, picks and adds the scaled
  rows, and scales the sums by dinv again in the next region (for the last layer, in the host operations that follow). An
  edge adds at row n only when its target word is n itself, so the reference's dinv (dst e) is dinv n on every term of
  row n's sum; and dinv n, one over the square root of a positive quantity, is a finite nonnegative factor, which
  distributes over a sum of extended reals. So the two aggregations agree (`GcnSpec.edge_form`, `GcnSpec.node_form`).
  The rest is the same on both sides: the products with the weights (a matrix unit's product into a zero accumulator
  is the host's contraction, and a change of float format is the identity on exact values), the bias and the clamp at
  zero, and the final pooling. The finiteness of the inputs is not used.

  `Region0`, `Region1`, `Region2` give each kernel region's output array as one function of the arrays it reads;
  `KernelRun` names the kernel's result after its run; `KernelValue` reads that result down to the argument arrays and
  finds the reference's result term; `RefRun`, `RefRead` and `RefValue` are the reference's run and its stages.
-/
import proofs.«146662_j49950469653067_2_alg».proof.Defs
import proofs.«146662_j49950469653067_2_alg».proof.Proof.Gen.Kernel
import proofs.«146662_j49950469653067_2_alg».proof.Proof.Gen.Kernel.Frame
import proofs.«146662_j49950469653067_2_alg».proof.Proof.Gen.KernelIdeal
import proofs.«146662_j49950469653067_2_alg».proof.Proof.Gen.KernelIdeal.Frame
import proofs.«146662_j49950469653067_2_alg».proof.Proof.Gen.ReferenceIdeal
import proofs.«146662_j49950469653067_2_alg».proof.Proof.Gen.Pre_finite_inputs
import proofs.«146662_j49950469653067_2_alg».proof.Proof.RefRun
import proofs.«146662_j49950469653067_2_alg».proof.Proof.RefRead
import proofs.«146662_j49950469653067_2_alg».proof.Proof.KernelRun
import proofs.«146662_j49950469653067_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result's value dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result: the kernel's result is the
    reference's result term of the kernel's arguments (`KVal.result_eq`), and the reference's is that term of its own. -/
theorem algebraic : Cert.algebraic_KernelIdeal_ReferenceIdeal := by
  intro m ρ m' ρ' _ hagree
  refine ⟨fun c => Cert.KernelIdeal.Gen.W11 m ρ c (Proc.devRef .tc Cert.KernelIdeal.main_v69), Cert.KernelIdeal.KRun.run m ρ, ?_⟩
  refine (θ_run Cert.ReferenceIdeal.defs _ _).mono (fun _ h c => ⟨?_, (h c).2⟩)
    (Cert.ReferenceIdeal.ValueP.run (F := Ideal) m' ρ')
  refine (h c).1.trans ?_
  show Cert.ReferenceIdeal.ValueP.res_main_v145 m' c
    = Cert.KernelIdeal.Gen.W11 m ρ c (Proc.devRef .tc Cert.KernelIdeal.main_v69)
  rw [Cert.ReferenceIdeal.ReadP.val_main_v145_eq, Cert.KernelIdeal.KVal.result_eq m ρ c,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
